-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S4096 : Shape := ⟨1, ![4096]⟩
abbrev S4096x64 : Shape := ⟨2, ![4096, 64]⟩
abbrev S64 : Shape := ⟨1, ![64]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S4096x64 1) : IVec S_ 1 :=
  let main_c_5 : IVec S_ 1 := constantI S_ 1 1#1
  let main_v17 : IVec S_ 1 := (fun x v => Host.reduce IntOp.andi x v reducesTo_S4096x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S16384x4096 .f32) (main_arg1 : FVec F S4096x4096 .f32) (main_arg2 : FVec F S4096 .f32) (main_arg3 : FVec F S4096x64 .f32) (main_arg4 : FVec F S64 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x64 .f32 := Host.absf main_arg3
  let main_cst_4 : FVec F S_ .f32 := constant S_ .f32 0x7F800000#32
  let main_v15 : FVec F S4096x64 .f32 := broadcastInDim S4096x64 ![] bcast_S_S4096x64 main_cst_4
  let main_v16 : IVec S4096x64 1 := cmpf .olt main_v14 main_v15
  fn_part1 (F := F) main_arg4 main_v13 main_v16
-- ==== Kernel.lean ====
abbrev S16384x4096 : Shape := ⟨2, ![16384, 4096]⟩
abbrev S4096x4096 : Shape := ⟨2, ![4096, 4096]⟩
abbrev S4096 : Shape := ⟨1, ![4096]⟩
abbrev S4096x64 : Shape := ⟨2, ![4096, 64]⟩
abbrev S64 : Shape := ⟨1, ![64]⟩
abbrev S1x4096 : Shape := ⟨2, ![1, 4096]⟩
abbrev S1x64 : Shape := ⟨2, ![1, 64]⟩
abbrev S16384x64 : Shape := ⟨2, ![16384, 64]⟩
abbrev S512x4096 : Shape := ⟨2, ![512, 4096]⟩
abbrev S512x64 : Shape := ⟨2, ![512, 64]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4096x64, .f32⟩
  | .hbm, ⟨4, _⟩ => ⟨S64, .f32⟩
  | .hbm, ⟨5, _⟩ => ⟨S4096x4096, .bf16⟩
  | .hbm, ⟨6, _⟩ => ⟨S4096x64, .bf16⟩
  | .hbm, ⟨7, _⟩ => ⟨S1x4096, .f32⟩
  | .hbm, ⟨8, _⟩ => ⟨S1x64, .f32⟩
  | .hbm, ⟨9, _⟩ => ⟨S16384x64, .f32⟩
  | .hbm, ⟨10, _⟩ => ⟨S16384x64, .f32⟩
  | .local _ .vmem, ⟨0, _⟩ => ⟨S512x4096, .f32⟩
  | .local _ .vmem, ⟨1, _⟩ => ⟨S512x4096, .f32⟩
  | .local _ .vmem, ⟨2, _⟩ => ⟨S4096x4096, .bf16⟩
  | .local _ .vmem, ⟨3, _⟩ => ⟨S1x4096, .f32⟩
  | .local _ .vmem, ⟨4, _⟩ => ⟨S4096x64, .bf16⟩
  | .local _ .vmem, ⟨5, _⟩ => ⟨S1x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S512x64, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  shapeCasts_S4096_S1x4096 : S4096.ShapeCasts S1x4096
  shapeCasts_S64_S1x64 : S64.ShapeCasts S1x64
  inb_S512x4096_S512x4096_0_0 : ∀ a, (![0, 0] : Fin 2 → Nat) a + S512x4096.size a ≤ S512x4096.size a
  h_S512x4096 : 0 < S512x4096.numel
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  reduces_S512x64_S512 : S512x64.Reduces [1] S512
  shapeCasts_S512_S512x1 : S512.ShapeCasts S512x1
  broadcasts_S512x1_S512x64 : S512x1.Broadcasts S512x64
  dot_S512x4096_S4096x4096_S512x4096_1_0_0_1_n_n_wf : DotDims.WF S512x4096 S4096x4096 S512x4096 [1] [0] [0] [1] [] []
  dot_S512x4096_S4096x64_S512x64_1_0_0_1_n_n_wf : DotDims.WF S512x4096 S4096x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S4096x64.size a
  hwx0_3 : ∀ i : grid0.Coords, EltTy.bits .bf16 = 32 ∨ (Rect.block (s := S4096x64) S4096x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x64.size a ≤ S16384x64.size a
  hwx0_5 : ∀ i : grid0.Coords, EltTy.bits .f32 = 32 ∨ (Rect.block (s := S16384x64) S512x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x64.size a ≤ S16384x64.size a
  hwx0_6 : ∀ i : grid0.Coords, EltTy.bits .f32 = 32 ∨ (Rect.block (s := S16384x64) S512x64.size (cc0_transform_6 i) (hinb0_6 i)).WholeWords (EltTy.packing .f32)

variable [Facts₀]

def dot_S512x4096_S4096x4096_S512x4096_1_0_0_1_n_n : DotDims S512x4096 S4096x4096 S512x4096 where
  lhsContracting := [1]
  rhsContracting := [0]
  lhsNonContracting := [0]
  rhsNonContracting := [1]
  lhsBatch := []
  rhsBatch := []
  wf := dot_S512x4096_S4096x4096_S512x4096_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S4096x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S512x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S512x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096x4096 : Shape := ⟨2, ![4096, 4096]⟩
abbrev S4096 : Shape := ⟨1, ![4096]⟩
abbrev S4096x64 : Shape := ⟨2, ![4096, 64]⟩
abbrev S64 : Shape := ⟨1, ![64]⟩
abbrev S1x4096 : Shape := ⟨2, ![1, 4096]⟩
abbrev S_ : Shape := ⟨0, ![]⟩
abbrev S16384x64 : Shape := ⟨2, ![16384, 64]⟩
abbrev S1x64 : Shape := ⟨2, ![1, 64]⟩
abbrev S16384 : Shape := ⟨1, ![16384]⟩
abbrev S16384x1 : Shape := ⟨2, ![16384, 1]⟩

abbrev nBuf : Space → Nat
  | .hbm => 36
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4096x64, .f32⟩
  | .hbm, ⟨4, _⟩ => ⟨S64, .f32⟩
  | .hbm, ⟨5, _⟩ => ⟨S16384x4096, .f32⟩
  | .hbm, ⟨6, _⟩ => ⟨S1x4096, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x64, .f32⟩
  | .hbm, ⟨19, _⟩ => ⟨S1x64, .f32⟩
  | .hbm, ⟨20, _⟩ => ⟨S16384x64, .f32⟩
  | .hbm, ⟨21, _⟩ => ⟨S16384x64, .f32⟩
  | .hbm, ⟨22, _⟩ => ⟨S_, .f32⟩
  | .hbm, ⟨23, _⟩ => ⟨S16384, .f32⟩
  | .hbm, ⟨24, _⟩ => ⟨S_, .f32⟩
  | .hbm, ⟨25, _⟩ => ⟨S16384, .f32⟩
  | .hbm, ⟨26, _⟩ => ⟨S16384, .f32⟩
  | .hbm, ⟨27, _⟩ => ⟨S16384x1, .f32⟩
  | .hbm, ⟨28, _⟩ => ⟨S16384x64, .f32⟩
  | .hbm, ⟨29, _⟩ => ⟨S16384x64, .f32⟩
  | .hbm, ⟨30, _⟩ => ⟨S16384x64, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S16384x64, .f32⟩
  | .hbm, ⟨35, _⟩ => ⟨S16384x64, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S16384_d1 : S16384x64.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  dot_S16384x4096_S4096x4096_S16384x4096_1_0_0_1_n_n_wf : DotDims.WF S16384x4096 S4096x4096 S16384x4096 [1] [0] [0] [1] [] []
  dot_S16384x4096_S4096x64_S16384x64_1_0_0_1_n_n_wf : DotDims.WF S16384x4096 S4096x64 S16384x64 [1] [0] [0] [1] [] []

variable [Facts₀]

def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf
def dot_S16384x4096_S4096x64_S16384x64_1_0_0_1_n_n : DotDims S16384x4096 S4096x64 S16384x64 where
  lhsContracting := [1]
  rhsContracting := [0]
  lhsNonContracting := [0]
  rhsNonContracting := [1]
  lhsBatch := []
  rhsBatch := []
  wf := dot_S16384x4096_S4096x64_S16384x64_1_0_0_1_n_n_wf

class Facts : Prop extends Facts₀ where

variable [Facts]
-- ==== Proof.RouterSpec.lean ====
/-
  A token router, read one token at a time.

  One token is a row x of D features. With weights w1 (D by H), w2 (H by E) and biases b1, b2, the router's
  first layer is  a j = (sum over k of x k * w1 k j) + b1 j,  its hidden activation the sigmoid-weighted value
  h j = a j * s (a j)  with s the logistic function, and its logits are
      logit e = (sum over j of h j * w2 j e) + b2 e.
  The gate is the softmax of that row of E logits in its stable form: with M the maximum of the row (a fold of max
  from a starting value lo below every number), g e = exp (logit e - M) / (sum over e' of exp (logit e' - M)).

  Everything is on the extended reals and nothing is assumed finite: the definitions only name the operations, in
  one fixed order. The point of the file is that every output row depends on the SAME row of the input and on the
  weights, so a whole array of tokens and any block of consecutive tokens read the same functions, row by row.
-/
import Idealize.ShloMosaic.PureOps.Ideal
import Idealize.ShloMosaic.Lib.ValueIdx
import Mathlib.Data.Finset.Fold

noncomputable section

open scoped BigOperators

namespace Cert.Router

open Idealize.ShloMosaic Idealize.ShloMosaic.ValueIdx

variable {N D H E : ℕ}

/-! ## One token -/

/-- The first layer at hidden unit j: the row times column j of the weights, plus the bias. -/
def pre (xr : Fin D → EReal) (w1 : Fin D → Fin H → EReal) (b1 : Fin H → EReal) (j : Fin H) : EReal :=
  (∑ k : Fin D, xr k * w1 k j) + b1 j

/-- The hidden activation: the first layer's value times its logistic. -/
def hid (xr : Fin D → EReal) (w1 : Fin D → Fin H → EReal) (b1 : Fin H → EReal) (j : Fin H) : EReal :=
  pre xr w1 b1 j * Ideal.logistic (pre xr w1 b1 j)

/-- The logit of expert e: the hidden row times column e of the second weights, plus the bias. -/
def logit (xr : Fin D → EReal) (w1 : Fin D → Fin H → EReal) (b1 : Fin H → EReal) (w2 : Fin H → Fin E → EReal)
    (b2 : Fin E → EReal) (e : Fin E) : EReal :=
  (∑ j : Fin H, hid xr w1 b1 j * w2 j e) + b2 e

/-! ## The stable softmax of a row -/

/-- The starting value both programs fold their row maximum from: the f32 pattern of minus infinity. -/
abbrev lo : EReal := Ideal.ofBits .f32 0xFF800000#32

/-- The row's maximum, folded from the starting value lo. -/
def rowMax (lo : EReal) (l : Fin E → EReal) : EReal := (Finset.univ : Finset (Fin E)).fold max lo l

/-- The exponential of an entry's distance below the maximum. -/
def shifted (lo : EReal) (l : Fin E → EReal) (e : Fin E) : EReal := Ideal.exp (l e - rowMax lo l)

/-- The softmax: each shifted exponential over their sum. -/
def softmax (lo : EReal) (l : Fin E → EReal) (e : Fin E) : EReal :=
  Ideal.div (shifted lo l e) (∑ e' : Fin E, shifted lo l e')

/-- Taking the maximum with the starting value once more changes nothing: the fold already lies above it. -/
theorem max_rowMax (lo : EReal) (l : Fin E → EReal) : max lo (rowMax lo l) = rowMax lo l :=
  max_eq_right ((Finset.le_fold_max lo).mpr (Or.inl le_rfl))

/-! ## Rows, matrices and vectors out of arrays -/

/-- Row r of a two-axis array. -/
def rowOf (x : (⟨2, ![N, D]⟩ : Shape).Idx → EReal) (r : Fin N) : Fin D → EReal := fun k => x (ix2 r k)

/-- A two-axis array as a function of its two coordinates. -/
def mat (w : (⟨2, ![D, H]⟩ : Shape).Idx → EReal) : Fin D → Fin H → EReal := fun k j => w (ix2 k j)

/-- A one-axis array as a function of its coordinate. -/
def vec (b : (⟨1, ![H]⟩ : Shape).Idx → EReal) : Fin H → EReal := fun j => b (ix1 j)

/-- The one row of a [1, H] array. -/
def row0 (b : (⟨2, ![1, H]⟩ : Shape).Idx → EReal) : Fin H → EReal := fun j => b (ix2 (0 : Fin 1) j)

/-! ## All tokens at once -/

/-- The logits of N tokens: entry (r, e) is the logit of expert e for token r. -/
def logitsArr (x0 : (⟨2, ![N, D]⟩ : Shape).Idx → EReal) (x1 : (⟨2, ![D, H]⟩ : Shape).Idx → EReal)
    (x2 : (⟨1, ![H]⟩ : Shape).Idx → EReal) (x3 : (⟨2, ![H, E]⟩ : Shape).Idx → EReal) (x4 : (⟨1, ![E]⟩ : Shape).Idx → EReal) :
    (⟨2, ![N, E]⟩ : Shape).Idx → EReal :=
  fun i => logit (rowOf x0 (i 0)) (mat x1) (vec x2) (mat x3) (vec x4) (i 1)

/-- The gates of N tokens: entry (r, e) is the softmax of token r's logits at e, the maximum folded from lo. -/
def gateArr (lo : EReal) (x0 : (⟨2, ![N, D]⟩ : Shape).Idx → EReal) (x1 : (⟨2, ![D, H]⟩ : Shape).Idx → EReal)
    (x2 : (⟨1, ![H]⟩ : Shape).Idx → EReal) (x3 : (⟨2, ![H, E]⟩ : Shape).Idx → EReal) (x4 : (⟨1, ![E]⟩ : Shape).Idx → EReal) :
    (⟨2, ![N, E]⟩ : Shape).Idx → EReal :=
  fun i => softmax lo (logit (rowOf x0 (i 0)) (mat x1) (vec x2) (mat x3) (vec x4)) (i 1)

theorem logitsArr_ix2 (x0 : (⟨2, ![N, D]⟩ : Shape).Idx → EReal) (x1 : (⟨2, ![D, H]⟩ : Shape).Idx → EReal)
    (x2 : (⟨1, ![H]⟩ : Shape).Idx → EReal) (x3 : (⟨2, ![H, E]⟩ : Shape).Idx → EReal) (x4 : (⟨1, ![E]⟩ : Shape).Idx → EReal)
    (r : Fin N) (e : Fin E) :
    logitsArr x0 x1 x2 x3 x4 (ix2 r e) = logit (rowOf x0 r) (mat x1) (vec x2) (mat x3) (vec x4) e := rfl

theorem gateArr_ix2 (lo : EReal) (x0 : (⟨2, ![N, D]⟩ : Shape).Idx → EReal) (x1 : (⟨2, ![D, H]⟩ : Shape).Idx → EReal)
    (x2 : (⟨1, ![H]⟩ : Shape).Idx → EReal) (x3 : (⟨2, ![H, E]⟩ : Shape).Idx → EReal) (x4 : (⟨1, ![E]⟩ : Shape).Idx → EReal)
    (r : Fin N) (e : Fin E) :
    gateArr lo x0 x1 x2 x3 x4 (ix2 r e) = softmax lo (logit (rowOf x0 r) (mat x1) (vec x2) (mat x3) (vec x4)) e := rfl

end Cert.Router

end
-- ==== Proof.RefRows.lean ====
/-
  The reference, one token at a time.

  Each stage of the reference program, read at row r, is the row function of the router (RouterSpec): its first
  product plus the bias is the first layer, its spelled-out sigmoid 1 / (1 + exp (-a)) IS the logistic function on
  the extended reals (that is how the logistic is defined there), its second product plus the bias the logits, and its
  softmax the stable one. Two small differences of spelling disappear: the reference takes the maximum of the row
  maximum with minus infinity once more, which is the row maximum again because the fold started there; and it adds
  its sum to a starting zero.
-/
import proofs.«160031_g12713103196696_cont_fleet_1060_40_alg».proof.Proof.Gen.ReferenceIdeal.Read
import proofs.«160031_g12713103196696_cont_fleet_1060_40_alg».proof.Proof.RouterSpec
import Idealize.ShloMosaic.Lib.IdealHost

noncomputable section

open scoped BigOperators

namespace Cert.Router.Ref

open Cert.ReferenceIdeal Cert.ReferenceIdeal.Gen Cert.ReferenceIdeal.Read Idealize.ShloMosaic Idealize.ShloMosaic.ValueIdx Cert.Router

/-- The first layer at (r, j). -/
theorem pre_at (x0 : (⟨S16384x4096, .f32⟩ : BufTy).Contents (Elt Ideal)) (x1 : (⟨S4096x4096, .f32⟩ : BufTy).Contents (Elt Ideal)) (x2 : (⟨S4096, .f32⟩ : BufTy).Contents (Elt Ideal)) (r : Fin 16384) (j : Fin 4096) :
    val_main_v3 (F := Ideal) x0 x1 x2 (ix2 r j)
      = pre (rowOf (N := 16384) (D := 4096) x0 r) (mat (D := 4096) (H := 4096) x1) (vec (H := 4096) x2) j := by
  rw [val_main_v3_apply, val_main_v0_apply, val_main_v2_apply, val_main_v1_apply]
  have el : ∀ k : Fin 4096, lidx_main_v0 (ix2 r j) k = ix2 r k := fun k => funext fun a => Fin.ext (by
    match a with | ⟨0, _⟩ => rfl | ⟨1, _⟩ => rfl)
  have er : ∀ k : Fin 4096, ridx_main_v0 (ix2 r j) k = ix2 k j := fun k => funext fun a => Fin.ext (by
    match a with | ⟨0, _⟩ => rfl | ⟨1, _⟩ => rfl)
  have eb : idx_main_v1 (idx_main_v2 (ix2 r j)) = ix1 j := funext fun a => Fin.ext (by
    match a with | ⟨0, _⟩ => rfl)
  simp only [el, er, eb]
  rfl

/-- The hidden activation at (r, j): the reference's 1 / (1 + exp (-a)) is the logistic of a. -/
theorem hid_at (x0 : (⟨S16384x4096, .f32⟩ : BufTy).Contents (Elt Ideal)) (x1 : (⟨S4096x4096, .f32⟩ : BufTy).Contents (Elt Ideal)) (x2 : (⟨S4096, .f32⟩ : BufTy).Contents (Elt Ideal)) (r : Fin 16384) (j : Fin 4096) :
    val_main_v10 (F := Ideal) x0 x1 x2 (ix2 r j)
      = hid (rowOf (N := 16384) (D := 4096) x0 r) (mat (D := 4096) (H := 4096) x1) (vec (H := 4096) x2) j := by
  rw [val_main_v10_apply, val_main_v9_apply, val_main_v8_apply, val_main_cst_0_apply, val_main_v7_apply, val_main_v6_apply,
    val_main_cst_apply, val_main_v5_apply, val_main_v4_apply, pre_at]
  simp only [Ideal.ofBits_def, Ideal.ofBits_one_f32, Ideal.hostDivf_def, Ideal.addf_def, Ideal.hostUnary_exp_def,
    Ideal.hostNegf_def, Ideal.negf_def, Ideal.mulf_def]
  rfl

/-- The logit at (r, e). -/
theorem logit_at (x0 : (⟨S16384x4096, .f32⟩ : BufTy).Contents (Elt Ideal)) (x1 : (⟨S4096x4096, .f32⟩ : BufTy).Contents (Elt Ideal)) (x2 : (⟨S4096, .f32⟩ : BufTy).Contents (Elt Ideal)) (x3 : (⟨S4096x64, .f32⟩ : BufTy).Contents (Elt Ideal)) (x4 : (⟨S64, .f32⟩ : BufTy).Contents (Elt Ideal)) (r : Fin 16384) (e : Fin 64) :
    val_main_v14 (F := Ideal) x0 x1 x2 x3 x4 (ix2 r e) = logit (rowOf (N := 16384) (D := 4096) x0 r) (mat (D := 4096) (H := 4096) x1) (vec (H := 4096) x2) (mat (D := 4096) (H := 64) x3) (vec (H := 64) x4) e := by
  rw [val_main_v14_apply, val_main_v11_apply, val_main_v13_apply, val_main_v12_apply]
  have el : ∀ k : Fin 4096, lidx_main_v11 (ix2 r e) k = ix2 r k := fun k => funext fun a => Fin.ext (by
    match a with | ⟨0, _⟩ => rfl | ⟨1, _⟩ => rfl)
  have er : ∀ k : Fin 4096, ridx_main_v11 (ix2 r e) k = ix2 k e := fun k => funext fun a => Fin.ext (by
    match a with | ⟨0, _⟩ => rfl | ⟨1, _⟩ => rfl)
  have eb : idx_main_v12 (idx_main_v13 (ix2 r e)) = ix1 e := funext fun a => Fin.ext (by
    match a with | ⟨0, _⟩ => rfl)
  simp only [el, er, eb, hid_at]
  rfl

/-- The reference's row maximum at r (the fold, then once more the maximum with minus infinity). -/
theorem rowMax_at (x0 : (⟨S16384x4096, .f32⟩ : BufTy).Contents (Elt Ideal)) (x1 : (⟨S4096x4096, .f32⟩ : BufTy).Contents (Elt Ideal)) (x2 : (⟨S4096, .f32⟩ : BufTy).Contents (Elt Ideal)) (x3 : (⟨S4096x64, .f32⟩ : BufTy).Contents (Elt Ideal)) (x4 : (⟨S64, .f32⟩ : BufTy).Contents (Elt Ideal)) (r : Fin 16384) :
    val_main_v17 (F := Ideal) x0 x1 x2 x3 x4 (ix1 r) = rowMax lo (logit (rowOf (N := 16384) (D := 4096) x0 r) (mat (D := 4096) (H := 4096) x1) (vec (H := 4096) x2) (mat (D := 4096) (H := 64) x3) (vec (H := 64) x4)) := by
  have h15 : val_main_v15 (F := Ideal) x0 x1 x2 x3 x4 (ix1 r) = rowMax lo (logit (rowOf (N := 16384) (D := 4096) x0 r) (mat (D := 4096) (H := 4096) x1) (vec (H := 4096) x2) (mat (D := 4096) (H := 64) x3) (vec (H := 64) x4)) := by
    unfold val_main_v15
    refine (Host.reduce_eq_fold_single (α := Ideal .f32) (FloatOps.maximumf (F := Ideal) (φ := .f32))
      (val_main_v14 (F := Ideal) x0 x1 x2 x3 x4 : S16384x64.Idx → Ideal .f32) (val_main_cst_1 (F := Ideal) : S_.Idx → Ideal .f32)
      reducesTo_S16384x64_S16384_d1 (by decide) h_S_ (ix1 r)).trans ?_
    unfold rowMax
    refine Finset.fold_congr fun k _ => ?_
    refine Eq.trans ?_ (logit_at x0 x1 x2 x3 x4 r k)
    exact congrArg (val_main_v14 (F := Ideal) x0 x1 x2 x3 x4) (funext fun a => Fin.ext (by
      match a with | ⟨0, _⟩ => rfl | ⟨1, _⟩ => rfl))
  rw [val_main_v17_apply, val_main_v16_apply, val_main_cst_2_apply, h15]
  exact max_rowMax lo _

/-- The shifted exponential at (r, e). -/
theorem shifted_at (x0 : (⟨S16384x4096, .f32⟩ : BufTy).Contents (Elt Ideal)) (x1 : (⟨S4096x4096, .f32⟩ : BufTy).Contents (Elt Ideal)) (x2 : (⟨S4096, .f32⟩ : BufTy).Contents (Elt Ideal)) (x3 : (⟨S4096x64, .f32⟩ : BufTy).Contents (Elt Ideal)) (x4 : (⟨S64, .f32⟩ : BufTy).Contents (Elt Ideal)) (r : Fin 16384) (e : Fin 64) :
    val_main_v21 (F := Ideal) x0 x1 x2 x3 x4 (ix2 r e) = shifted lo (logit (rowOf (N := 16384) (D := 4096) x0 r) (mat (D := 4096) (H := 4096) x1) (vec (H := 4096) x2) (mat (D := 4096) (H := 64) x3) (vec (H := 64) x4)) e := by
  rw [val_main_v21_apply, val_main_v20_apply, val_main_v19_apply, val_main_v18_apply, logit_at]
  have ei : idx_main_v18 (idx_main_v19 (ix2 r e)) = ix1 r := funext fun a => Fin.ext (by
    match a with | ⟨0, _⟩ => rfl)
  rw [ei, rowMax_at]
  rfl

/-- The reference's sum of a row's shifted exponentials, from its starting zero. -/
theorem sum_at (x0 : (⟨S16384x4096, .f32⟩ : BufTy).Contents (Elt Ideal)) (x1 : (⟨S4096x4096, .f32⟩ : BufTy).Contents (Elt Ideal)) (x2 : (⟨S4096, .f32⟩ : BufTy).Contents (Elt Ideal)) (x3 : (⟨S4096x64, .f32⟩ : BufTy).Contents (Elt Ideal)) (x4 : (⟨S64, .f32⟩ : BufTy).Contents (Elt Ideal)) (r : Fin 16384) :
    val_main_v22 (F := Ideal) x0 x1 x2 x3 x4 (ix1 r) = ∑ e' : Fin 64, shifted lo (logit (rowOf (N := 16384) (D := 4096) x0 r) (mat (D := 4096) (H := 4096) x1) (vec (H := 4096) x2) (mat (D := 4096) (H := 64) x3) (vec (H := 64) x4)) e' := by
  rw [val_main_v22_apply, val_main_cst_3_apply]
  have ek : ∀ k : Fin 64, idx_main_v22 (ix1 r) k = ix2 r k := fun k => funext fun a => Fin.ext (by
    match a with | ⟨0, _⟩ => rfl | ⟨1, _⟩ => rfl)
  simp only [ek, shifted_at, Ideal.ofBits_def, Ideal.ofBits_zero_f32, zero_add]

/-- The gate at (r, e). -/
theorem gate_at (x0 : (⟨S16384x4096, .f32⟩ : BufTy).Contents (Elt Ideal)) (x1 : (⟨S4096x4096, .f32⟩ : BufTy).Contents (Elt Ideal)) (x2 : (⟨S4096, .f32⟩ : BufTy).Contents (Elt Ideal)) (x3 : (⟨S4096x64, .f32⟩ : BufTy).Contents (Elt Ideal)) (x4 : (⟨S64, .f32⟩ : BufTy).Contents (Elt Ideal)) (r : Fin 16384) (e : Fin 64) :
    val_main_v25 (F := Ideal) x0 x1 x2 x3 x4 (ix2 r e) = softmax lo (logit (rowOf (N := 16384) (D := 4096) x0 r) (mat (D := 4096) (H := 4096) x1) (vec (H := 4096) x2) (mat (D := 4096) (H := 64) x3) (vec (H := 64) x4)) e := by
  rw [val_main_v25_apply, val_main_v24_apply, val_main_v23_apply, shifted_at]
  have ei : idx_main_v23 (idx_main_v24 (ix2 r e)) = ix1 r := funext fun a => Fin.ext (by
    match a with | ⟨0, _⟩ => rfl)
  rw [ei, sum_at]
  rfl

/-- The reference's first result is the logits of all tokens. -/
theorem logits_eq (x0 : (⟨S16384x4096, .f32⟩ : BufTy).Contents (Elt Ideal)) (x1 : (⟨S4096x4096, .f32⟩ : BufTy).Contents (Elt Ideal)) (x2 : (⟨S4096, .f32⟩ : BufTy).Contents (Elt Ideal)) (x3 : (⟨S4096x64, .f32⟩ : BufTy).Contents (Elt Ideal)) (x4 : (⟨S64, .f32⟩ : BufTy).Contents (Elt Ideal)) :
    val_main_v14 (F := Ideal) x0 x1 x2 x3 x4 = logitsArr (N := 16384) (D := 4096) (H := 4096) (E := 64) x0 x1 x2 x3 x4 := by
  funext i
  obtain ⟨r, e, rfl⟩ : ∃ (r : Fin 16384) (e : Fin 64), i = ix2 r e := ⟨i 0, i 1, eq_ix2 i⟩
  exact logit_at x0 x1 x2 x3 x4 r e

/-- The reference's second result is the gates of all tokens. -/
theorem gate_eq (x0 : (⟨S16384x4096, .f32⟩ : BufTy).Contents (Elt Ideal)) (x1 : (⟨S4096x4096, .f32⟩ : BufTy).Contents (Elt Ideal)) (x2 : (⟨S4096, .f32⟩ : BufTy).Contents (Elt Ideal)) (x3 : (⟨S4096x64, .f32⟩ : BufTy).Contents (Elt Ideal)) (x4 : (⟨S64, .f32⟩ : BufTy).Contents (Elt Ideal)) :
    val_main_v25 (F := Ideal) x0 x1 x2 x3 x4 = gateArr (N := 16384) (D := 4096) (H := 4096) (E := 64) lo x0 x1 x2 x3 x4 := by
  funext i
  obtain ⟨r, e, rfl⟩ : ∃ (r : Fin 16384) (e : Fin 64), i = ix2 r e := ⟨i 0, i 1, eq_ix2 i⟩
  exact gate_at x0 x1 x2 x3 x4 r e

end Cert.Router.Ref

end
-- ==== Proof.LibMlpAt.lean ====
/-
  The two-layer perceptron with rectifiers, read at one entry.

  For matrices x : [N, K], wa : [K, D], wb : [D, D] and one-row biases ba, bb : [1, D] the value at (r, q) is
      max (∑ j, max (∑ i, x[r,i] · wa[i,j] + ba[0,j]) 0 · wb[j,q] + bb[0,q]) 0
  on the extended reals. Two spellings of that function occur: the host's (two `dot_general`s, the biases broadcast
  along the rows, the rectifier a maximum with a broadcast zero) and a tile's (two matrix products into a zero
  accumulator with the operands narrowed to bf16 first, the biases broadcast as vectors). At the ideal values a change of
  format is the identity and both products are plain sums over the contracted coordinate, so each spelling reads the
  formula above at every entry; nothing here needs the entries to be finite.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Mlp

open Idealize.ShloMosaic Idealize.ShloMosaic.ValueIdx

/-! ## A plain matrix product's dimension numbers, and its sum -/

/-- The dimension numbers of a plain product [m, k] × [k, n] → [m, n]: contract the left operand's axis 1 with the
    right operand's axis 0. -/
abbrev D2 {m k n : Nat} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

variable {m k n : Nat}

/-- The left operand's index at output (a, b) and contracted coordinate c is (a, c). -/
theorem lhsIdx_D2 (w : DotDims.WF ⟨2, ![m, k]⟩ ⟨2, ![k, n]⟩ ⟨2, ![m, n]⟩ [1] [0] [0] [1] [] []) (a : Fin m) (b : Fin n) (c : Fin k) :
    (D2 w).lhsIdx (ix2 a b) ((contrEquiv1 (D2 w) k rfl rfl).symm c) = ix2 a c := by
  have c2 := contrEquiv1_symm_val (D2 w) k rfl rfl c
  funext ax; apply Fin.ext
  match ax with
  | ⟨0, _⟩ => simp [DotDims.lhsIdx]; rfl
  | ⟨1, _⟩ => simp [DotDims.lhsIdx]; exact c2

/-- The right operand's index at output (a, b) and contracted coordinate c is (c, b). -/
theorem rhsIdx_D2 (w : DotDims.WF ⟨2, ![m, k]⟩ ⟨2, ![k, n]⟩ ⟨2, ![m, n]⟩ [1] [0] [0] [1] [] []) (a : Fin m) (b : Fin n) (c : Fin k) :
    (D2 w).rhsIdx (ix2 a b) ((contrEquiv1 (D2 w) k rfl rfl).symm c) = ix2 c b := by
  have c2 := contrEquiv1_symm_val (D2 w) k rfl rfl c
  funext ax; apply Fin.ext
  match ax with
  | ⟨0, _⟩ => simp [DotDims.rhsIdx]; exact c2
  | ⟨1, _⟩ => simp [DotDims.rhsIdx]; rfl

/-- The host's product at (a, b): the sum over the contracted coordinate of the entries' products. -/
theorem dotGeneral_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (D2 w) prec A B (ix2 a b) = ∑ c : Fin k, A (ix2 a c) * B (ix2 c b) := by
  show FloatOps.dotGeneral _ prec _ A B (ix2 a b) = _
  rw [Ideal.dotGeneral_apply, ← Equiv.sum_comp (contrEquiv1 (D2 w) k rfl rfl).symm]
  refine Finset.sum_congr rfl fun c _ => ?_
  rw [lhsIdx_D2, rhsIdx_D2]

/-- A tile's product into a zero accumulator at (a, b): the same sum. -/
theorem matmul_zero_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (D2 w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (D2 w) k rfl rfl).symm]
  refine Finset.sum_congr rfl fun c _ => ?_
  rw [lhsIdx_D2, rhsIdx_D2]

/-! ## Broadcasts of a one-row bias and of a scalar, at an entry -/

/-- A [1, D] row broadcast along the rows of [N, D] reads, at (r, q), the row at q. -/
theorem bcastRow_at {N D : Nat} {α : Type} (h : (⟨2, ![1, D]⟩ : Shape).BroadcastsInDim ⟨2, ![N, D]⟩ (![0, 1] : Fin 2 → Fin 2))
    (v : (⟨2, ![1, D]⟩ : Shape).Idx → α) (r : Fin N) (q : Fin D) :
    broadcastInDim ⟨2, ![N, D]⟩ (![0, 1] : Fin 2 → Fin 2) h v (ix2 r q) = v (ix2 (0 : Fin 1) q) := by
  refine broadcastInDim_apply _ h v (ix2 r q) (ix2 (0 : Fin 1) q) fun ax => ?_
  match ax with
  | ⟨0, _⟩ => rfl
  | ⟨1, _⟩ =>
    show q.val = if D = 1 then 0 else q.val
    split
    · have := q.isLt; omega
    · rfl

/-- A scalar broadcast to [N, D] reads the scalar everywhere. -/
theorem bcastScalar_at {N D : Nat} {α : Type} (h : (⟨0, ![]⟩ : Shape).BroadcastsInDim ⟨2, ![N, D]⟩ (![] : Fin 0 → Fin 2))
    (v : (⟨0, ![]⟩ : Shape).Idx → α) (i : (⟨2, ![N, D]⟩ : Shape).Idx) :
    broadcastInDim ⟨2, ![N, D]⟩ (![] : Fin 0 → Fin 2) h v i = v ix0 :=
  broadcastInDim_apply _ h v i ix0 fun ax => ax.elim0

/-- A [D] vector viewed as its one row [1, D] is the vector broadcast along a new leading unit axis: both read the
    vector's entry i at (0, i). -/
theorem rowCast_eq_bcast {D : Nat} {α : Type} (x : (⟨1, ![D]⟩ : Shape).Idx → α) (h : (⟨1, ![D]⟩ : Shape).ShapeCasts ⟨2, ![1, D]⟩)
    (h' : (⟨1, ![D]⟩ : Shape).BroadcastsInDim ⟨2, ![1, D]⟩ (![1] : Fin 1 → Fin 2)) :
    shapeCast ⟨2, ![1, D]⟩ x h = broadcastInDim ⟨2, ![1, D]⟩ (![1] : Fin 1 → Fin 2) h' x := by
  funext j
  obtain ⟨u, i, rfl⟩ : ∃ (u : Fin 1) (i : Fin D), j = ix2 u i := ⟨j 0, j 1, eq_ix2 j⟩
  rw [shapeCast_a_1a_apply]
  refine (broadcastInDim_apply _ h' x (ix2 u i) (ix1 i) fun ax => ?_).symm
  match ax with
  | ⟨0, _⟩ =>
    show i.val = if D = 1 then 0 else i.val
    split
    · have := i.isLt; omega
    · rfl

/-! ## The perceptron at an entry -/

/-- The value at (r, q): the second layer's rectified affine map of the first layer's. -/
def mlpVal {N K D : Nat} (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) : Ideal .f32 :=
  max ((∑ j : Fin D, max ((∑ i : Fin K, x (ix2 r i) * wa (ix2 i j)) + ba (ix2 (0 : Fin 1) j)) (Ideal.ofBits .f32 0x00000000#32) * wb (ix2 j q))
    + bb (ix2 (0 : Fin 1) q)) (Ideal.ofBits .f32 0x00000000#32)

/-- The value at row r depends only on row r of x: two inputs with equal rows give equal values. -/
theorem mlpVal_congr_row {N N' K D : Nat} (x : FVec Ideal ⟨2, ![N, K]⟩ .f32) (x' : FVec Ideal ⟨2, ![N', K]⟩ .f32)
    (wa : FVec Ideal ⟨2, ![K, D]⟩ .f32) (ba : FVec Ideal ⟨2, ![1, D]⟩ .f32) (wb : FVec Ideal ⟨2, ![D, D]⟩ .f32) (bb : FVec Ideal ⟨2, ![1, D]⟩ .f32)
    (r : Fin N) (r' : Fin N') (hrow : ∀ i : Fin K, x (ix2 r i) = x' (ix2 r' i)) (q : Fin D) :
    mlpVal x wa ba wb bb r q = mlpVal x' wa ba wb bb r' q := by
  unfold mlpVal
  simp only [hrow]

/-- The host's spelling: two `dot_general`s, the biases broadcast along the rows, each rectifier a maximum with a
    broadcast zero. -/
def mlpHost {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![N, D]⟩ .f32 :=
  maximumf (addf (Host.dotGeneral (D2 wB) none
      (maximumf (addf (Host.dotGeneral (D2 wA) none x wa) (broadcastInDim ⟨2, ![N, D]⟩ (![0, 1] : Fin 2 → Fin 2) hb ba))
        (broadcastInDim ⟨2, ![N, D]⟩ (![] : Fin 0 → Fin 2) hz (constant (F := Ideal) ⟨0, ![]⟩ .f32 0x00000000#32))) wb)
      (broadcastInDim ⟨2, ![N, D]⟩ (![0, 1] : Fin 2 → Fin 2) hb bb))
    (broadcastInDim ⟨2, ![N, D]⟩ (![] : Fin 0 → Fin 2) hz (constant (F := Ideal) ⟨0, ![]⟩ .f32 0x00000000#32))

theorem mlpHost_at {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) :
    mlpHost wA wB hb hz x wa ba wb bb (ix2 r q) = mlpVal x wa ba wb bb r q := by
  unfold mlpHost mlpVal
  rw [maximumf_apply, addf_apply, dotGeneral_at, bcastRow_at, bcastScalar_at, constant_apply]
  refine congrArg (fun s => max (s + bb (ix2 (0 : Fin 1) q)) (Ideal.ofBits .f32 0x00000000#32)) ?_
  refine Finset.sum_congr rfl fun j _ => ?_
  rw [maximumf_apply, addf_apply, dotGeneral_at, bcastRow_at, bcastScalar_at, constant_apply]

/-- The host's spelling with the biases given as vectors [D], each made a row by a broadcast along a new unit axis. -/
def mlpHostV {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) : FVec Ideal ⟨2, ![N, D]⟩ .f32 :=
  mlpHost wA wB hb hz x wa (broadcastInDim ⟨2, ![1, D]⟩ (![1] : Fin 1 → Fin 2) hr ba) wb
    (broadcastInDim ⟨2, ![1, D]⟩ (![1] : Fin 1 → Fin 2) hr bb)

/-- With the biases reshaped to one row instead: the same array. -/
theorem mlpHost_rowCast {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (hc : (⟨1, ![D]⟩ : Shape).ShapeCasts ⟨2, ![1, D]⟩)
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) :
    mlpHost wA wB hb hz x wa (shapeCast ⟨2, ![1, D]⟩ ba hc) wb (shapeCast ⟨2, ![1, D]⟩ bb hc)
      = mlpHostV wA wB hb hz hr x wa ba wb bb := by
  unfold mlpHostV
  rw [rowCast_eq_bcast ba hc hr, rowCast_eq_bcast bb hc hr]

/-- A tile's spelling: the operands narrowed to bf16, two products into a zero accumulator, the biases broadcast as
    vectors, each rectifier a maximum with a splat zero. -/
def mlpTile {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![T, D]⟩ .f32 :=
  maximumf (addf (matmul (D2 wB) none
      (truncf .bf16 (maximumf (addf (matmul (D2 wA) none (truncf .bf16 x hlt) (truncf .bf16 wa hlt) (constant ⟨2, ![T, D]⟩ .f32 0x00000000#32))
          (broadcastTo ⟨2, ![T, D]⟩ ba hb)) (broadcast ⟨2, ![T, D]⟩ (Scalar.ofBits (F := Ideal) .f32 0x00000000#32))) hlt)
      (truncf .bf16 wb hlt) (constant ⟨2, ![T, D]⟩ .f32 0x00000000#32))
      (broadcastTo ⟨2, ![T, D]⟩ bb hb))
    (broadcast ⟨2, ![T, D]⟩ (Scalar.ofBits (F := Ideal) .f32 0x00000000#32))

theorem mlpTile_at {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (p : Fin T) (q : Fin D) :
    mlpTile wA wB hb hlt x wa ba wb bb (ix2 p q) = mlpVal x wa ba wb bb p q := by
  unfold mlpTile mlpVal
  rw [maximumf_apply, addf_apply, matmul_zero_at, broadcastTo_1b_ab_apply, broadcast_apply]
  refine congrArg (fun s => max (s + bb (ix2 (0 : Fin 1) q)) (Ideal.ofBits .f32 0x00000000#32)) ?_
  refine Finset.sum_congr rfl fun j _ => ?_
  rw [truncf_apply, truncf_apply, maximumf_apply, addf_apply, matmul_zero_at, broadcastTo_1b_ab_apply, broadcast_apply]
  refine congrArg (fun s => max (s + ba (ix2 (0 : Fin 1) j)) (Ideal.ofBits .f32 0x00000000#32) * wb (ix2 j q)) ?_
  refine Finset.sum_congr rfl fun i _ => ?_
  rw [truncf_apply, truncf_apply]

end Cert.Mlp

end
-- ==== Proof.TileRows.lean ====
/-
  A tile of 512 tokens, one token at a time.

  The kernel body computes, from a block of 512 rows of the input, the whole weight matrices and the two bias rows,
  a block of logits and a block of gates. Read at entry (p, e) they are the router's row functions (RouterSpec) of
  row p of the block: a product into a zero accumulator is the plain sum over the contracted coordinate, narrowing an
  operand to bf16 changes nothing on the extended reals, a [1, H] bias broadcast down the rows reads its one row, the
  body's logistic is the logistic, and the softmax is written exactly in the stable form, its row maximum and row sum
  kept as columns and broadcast back along the row.
-/
import proofs.«160031_g12713103196696_cont_fleet_1060_40_alg».proof.Proof.Gen.KernelIdeal.Value
import proofs.«160031_g12713103196696_cont_fleet_1060_40_alg».proof.Proof.RouterSpec
import proofs.«160031_g12713103196696_cont_fleet_1060_40_alg».proof.Proof.LibMlpAt

noncomputable section

open scoped BigOperators

namespace Cert.Router.Tile

open Cert.KernelIdeal Cert.KernelIdeal.Gen Idealize.ShloMosaic Idealize.ShloMosaic.ValueIdx Cert.Router

/-! ## The two layers -/

/-- The first product of the tile: 512 rows times the first weights, into zero. -/
def mm1 (P0 : FVec Ideal S512x4096 .f32) (P1 : FVec Ideal S4096x4096 .bf16) : FVec Ideal S512x4096 .f32 :=
  matmul dot_S512x4096_S4096x4096_S512x4096_1_0_0_1_n_n none (truncf .bf16 P0 bitsLt_bf16_f32)
    (shapeCast S4096x4096 P1 shapeCasts_S4096x4096_S4096x4096) (constant S512x4096 .f32 0x00000000#32)

/-- The first bias, its one row broadcast down the tile. -/
def bias1 (P2 : FVec Ideal S1x4096 .f32) : FVec Ideal S512x4096 .f32 :=
  broadcastTo S512x4096 (shapeCast S1x4096 P2 shapeCasts_S1x4096_S1x4096) broadcasts_S1x4096_S512x4096

/-- The first layer of the tile. -/
def preTile (P0 : FVec Ideal S512x4096 .f32) (P1 : FVec Ideal S4096x4096 .bf16) (P2 : FVec Ideal S1x4096 .f32) : FVec Ideal S512x4096 .f32 := addf (mm1 P0 P1) (bias1 P2)

/-- The hidden activation of the tile. -/
def hidTile (P0 : FVec Ideal S512x4096 .f32) (P1 : FVec Ideal S4096x4096 .bf16) (P2 : FVec Ideal S1x4096 .f32) : FVec Ideal S512x4096 .f32 := mulf (preTile P0 P1 P2) (logistic (preTile P0 P1 P2))

/-- The second product: a hidden tile times the second weights, into zero. -/
def mm2 (Hd : FVec Ideal S512x4096 .f32) (P3 : FVec Ideal S4096x64 .bf16) : FVec Ideal S512x64 .f32 :=
  matmul dot_S512x4096_S4096x64_S512x64_1_0_0_1_n_n none (truncf .bf16 Hd bitsLt_bf16_f32)
    (shapeCast S4096x64 P3 shapeCasts_S4096x64_S4096x64) (constant S512x64 .f32 0x00000000#32)

/-- The second bias, its one row broadcast down the tile. -/
def bias2 (P4 : FVec Ideal S1x64 .f32) : FVec Ideal S512x64 .f32 :=
  broadcastTo S512x64 (shapeCast S1x64 P4 shapeCasts_S1x64_S1x64) broadcasts_S1x64_S512x64

/-- The body's first stored value is the second layer of the hidden tile. -/
theorem pay1_tree (P0 : FVec Ideal S512x4096 .f32) (P1 : FVec Ideal S4096x4096 .bf16) (P2 : FVec Ideal S1x4096 .f32) (P3 : FVec Ideal S4096x64 .bf16) (P4 : FVec Ideal S1x64 .f32) :
    k0_pay1 (F := Ideal) P0 P1 P2 P3 P4 = addf (mm2 (hidTile P0 P1 P2) P3) (bias2 P4) := rfl

theorem mm1_at (P0 : FVec Ideal S512x4096 .f32) (P1 : FVec Ideal S4096x4096 .bf16) (p : Fin 512) (j : Fin 4096) :
    mm1 P0 P1 (ix2 p j) = ∑ k : Fin 4096, P0 (ix2 p k) * P1 (ix2 k j) := by
  unfold mm1
  refine (Cert.Mlp.matmul_zero_at dot_S512x4096_S4096x4096_S512x4096_1_0_0_1_n_n_wf none (truncf .bf16 P0 bitsLt_bf16_f32)
    (shapeCast S4096x4096 P1 shapeCasts_S4096x4096_S4096x4096) p j).trans ?_
  rw [shapeCast_self]
  rfl

theorem bias1_at (P2 : FVec Ideal S1x4096 .f32) (p : Fin 512) (j : Fin 4096) :
    bias1 P2 (ix2 p j) = P2 (ix2 (0 : Fin 1) j) := by
  unfold bias1
  refine (broadcastTo_1b_ab_apply _ _ p j).trans ?_
  rw [shapeCast_self]

theorem preTile_at (P0 : FVec Ideal S512x4096 .f32) (P1 : FVec Ideal S4096x4096 .bf16) (P2 : FVec Ideal S1x4096 .f32) (p : Fin 512) (j : Fin 4096) :
    preTile P0 P1 P2 (ix2 p j) = pre (rowOf (N := 512) (D := 4096) P0 p) (mat (D := 4096) (H := 4096) P1) (row0 (H := 4096) P2) j := by
  show mm1 P0 P1 (ix2 p j) + bias1 P2 (ix2 p j) = _
  rw [mm1_at, bias1_at]
  rfl

theorem hidTile_at (P0 : FVec Ideal S512x4096 .f32) (P1 : FVec Ideal S4096x4096 .bf16) (P2 : FVec Ideal S1x4096 .f32) (p : Fin 512) (j : Fin 4096) :
    hidTile P0 P1 P2 (ix2 p j) = hid (rowOf (N := 512) (D := 4096) P0 p) (mat (D := 4096) (H := 4096) P1) (row0 (H := 4096) P2) j := by
  show preTile P0 P1 P2 (ix2 p j) * Ideal.logistic (preTile P0 P1 P2 (ix2 p j)) = _
  rw [preTile_at]
  rfl

theorem mm2_at (Hd : FVec Ideal S512x4096 .f32) (P3 : FVec Ideal S4096x64 .bf16) (p : Fin 512) (e : Fin 64) :
    mm2 Hd P3 (ix2 p e) = ∑ j : Fin 4096, Hd (ix2 p j) * P3 (ix2 j e) := by
  unfold mm2
  refine (Cert.Mlp.matmul_zero_at dot_S512x4096_S4096x64_S512x64_1_0_0_1_n_n_wf none (truncf .bf16 Hd bitsLt_bf16_f32)
    (shapeCast S4096x64 P3 shapeCasts_S4096x64_S4096x64) p e).trans ?_
  rw [shapeCast_self]
  rfl

theorem bias2_at (P4 : FVec Ideal S1x64 .f32) (p : Fin 512) (e : Fin 64) :
    bias2 P4 (ix2 p e) = P4 (ix2 (0 : Fin 1) e) := by
  unfold bias2
  refine (broadcastTo_1b_ab_apply _ _ p e).trans ?_
  rw [shapeCast_self]

/-- The logits tile at (p, e) is the logit of expert e for row p of the input block. -/
theorem logit_at (P0 : FVec Ideal S512x4096 .f32) (P1 : FVec Ideal S4096x4096 .bf16) (P2 : FVec Ideal S1x4096 .f32) (P3 : FVec Ideal S4096x64 .bf16) (P4 : FVec Ideal S1x64 .f32) (p : Fin 512) (e : Fin 64) :
    k0_pay1 (F := Ideal) P0 P1 P2 P3 P4 (ix2 p e) = logit (rowOf (N := 512) (D := 4096) P0 p) (mat (D := 4096) (H := 4096) P1) (row0 (H := 4096) P2) (mat (D := 4096) (H := 64) P3) (row0 (H := 64) P4) e := by
  rw [pay1_tree]
  show mm2 (hidTile P0 P1 P2) P3 (ix2 p e) + bias2 P4 (ix2 p e) = _
  rw [mm2_at, bias2_at]
  simp only [hidTile_at]
  rfl

/-! ## The softmax of a tile of logits -/

/-- The column of row maxima of a logits tile. -/
def maxTile (L : FVec Ideal S512x64 .f32) : FVec Ideal S512 .f32 :=
  multiReduction .maximumf [1] S512 L 0xFF800000#32 reduces_S512x64_S512 (.inl rfl) rfl

/-- A column of 512 values broadcast back along the rows reads, at (p, k), the value of row p. -/
theorem colBcast_at (v : FVec Ideal S512 .f32) (p : Fin 512) (k : Fin 64) :
    broadcastTo S512x64 (shapeCast S512x1 v shapeCasts_S512_S512x1) broadcasts_S512x1_S512x64 (ix2 p k) = v (ix1 p) := by
  refine (broadcastTo_apply _ _ (ix2 p k) (ix2 p (0 : Fin 1)) (fun a => ?_)).trans ?_
  · match a with
    | ⟨0, _⟩ => show p.val = (if (512 : Nat) = 1 then 0 else p.val); rw [if_neg (by decide)]
    | ⟨1, _⟩ => show 0 = (if (1 : Nat) = 1 then 0 else k.val); rw [if_pos rfl]
  · exact shapeCast_apply _ _ (ix2 p (0 : Fin 1)) (ix1 p) (by
      rw [Shape.rowMajor_val_one, Shape.rowMajor_val_two]; show p.val = p.val * 1 + 0; omega)

/-- The shifted exponentials of a logits tile. -/
def shiftedTile (L : FVec Ideal S512x64 .f32) : FVec Ideal S512x64 .f32 :=
  exp (subf L (broadcastTo S512x64 (shapeCast S512x1 (maxTile L) shapeCasts_S512_S512x1) broadcasts_S512x1_S512x64))

/-- The column of row sums of the shifted exponentials. -/
def sumTile (L : FVec Ideal S512x64 .f32) : FVec Ideal S512 .f32 :=
  multiReduction .add [1] S512 (shiftedTile L) 0x00000000#32 reduces_S512x64_S512 (.inl rfl) rfl

theorem maxTile_at (L : FVec Ideal S512x64 .f32) (p : Fin 512) :
    maxTile L (ix1 p) = rowMax lo (rowOf (N := 512) (D := 64) L p) := by
  unfold maxTile
  refine (Ideal.multiReduction_maximumf_single L 0xFF800000#32 reduces_S512x64_S512 (.inl rfl) rfl (ix1 p)).trans ?_
  unfold rowMax
  refine Finset.fold_congr fun k _ => ?_
  exact congrArg L (funext fun a => Fin.ext (by match a with | ⟨0, _⟩ => rfl | ⟨1, _⟩ => rfl))

theorem shiftedTile_at (L : FVec Ideal S512x64 .f32) (p : Fin 512) (k : Fin 64) :
    shiftedTile L (ix2 p k) = shifted lo (rowOf (N := 512) (D := 64) L p) k := by
  show Ideal.exp (L (ix2 p k) - broadcastTo S512x64 (shapeCast S512x1 (maxTile L) shapeCasts_S512_S512x1) broadcasts_S512x1_S512x64 (ix2 p k)) = _
  rw [colBcast_at, maxTile_at]
  rfl

theorem sumTile_at (L : FVec Ideal S512x64 .f32) (p : Fin 512) :
    sumTile L (ix1 p) = ∑ k : Fin 64, shifted lo (rowOf (N := 512) (D := 64) L p) k := by
  unfold sumTile
  refine (Ideal.multiReduction_add_single (shiftedTile L) 0x00000000#32 reduces_S512x64_S512 (.inl rfl) rfl (ix1 p)).trans ?_
  refine Finset.sum_congr rfl fun k _ => ?_
  refine Eq.trans ?_ (shiftedTile_at L p k)
  exact congrArg (shiftedTile L) (funext fun a => Fin.ext (by match a with | ⟨0, _⟩ => rfl | ⟨1, _⟩ => rfl))

/-- The gates tile's entry function, as the softmax columns of the logits tile. -/
theorem E6_tree (P0 : FVec Ideal S512x4096 .f32) (P1 : FVec Ideal S4096x4096 .bf16) (P2 : FVec Ideal S1x4096 .f32) (P3 : FVec Ideal S4096x64 .bf16) (P4 : FVec Ideal S1x64 .f32) (y : S512x64.Idx) :
    Cert.KernelIdeal.Value.E6 (F := Ideal) P0 P1 P2 P3 P4 y
      = Ideal.div (Ideal.exp (k0_pay1 (F := Ideal) P0 P1 P2 P3 P4 (Cert.KernelIdeal.Value.ix6_0 y)
          - maxTile (k0_pay1 (F := Ideal) P0 P1 P2 P3 P4) (Cert.KernelIdeal.Value.ix6_1 y)))
        (sumTile (k0_pay1 (F := Ideal) P0 P1 P2 P3 P4) (Cert.KernelIdeal.Value.ix6_2 y)) := rfl

/-- The gates tile at (p, e) is the softmax of row p's logits at e. -/
theorem gate_at (P0 : FVec Ideal S512x4096 .f32) (P1 : FVec Ideal S4096x4096 .bf16) (P2 : FVec Ideal S1x4096 .f32) (P3 : FVec Ideal S4096x64 .bf16) (P4 : FVec Ideal S1x64 .f32) (p : Fin 512) (e : Fin 64) :
    Cert.KernelIdeal.Value.E6 (F := Ideal) P0 P1 P2 P3 P4 (ix2 p e) = softmax lo (logit (rowOf (N := 512) (D := 4096) P0 p) (mat (D := 4096) (H := 4096) P1) (row0 (H := 4096) P2) (mat (D := 4096) (H := 64) P3) (row0 (H := 64) P4)) e := by
  have hrow : rowOf (N := 512) (D := 64) (k0_pay1 (F := Ideal) P0 P1 P2 P3 P4) p = logit (rowOf (N := 512) (D := 4096) P0 p) (mat (D := 4096) (H := 4096) P1) (row0 (H := 4096) P2) (mat (D := 4096) (H := 64) P3) (row0 (H := 64) P4) :=
    funext fun k => logit_at P0 P1 P2 P3 P4 p k
  have i0 : Cert.KernelIdeal.Value.ix6_0 (ix2 p e) = ix2 p e := funext fun a => Fin.ext (by
    match a with | ⟨0, _⟩ => rfl | ⟨1, _⟩ => rfl)
  have i1 : Cert.KernelIdeal.Value.ix6_1 (ix2 p e) = ix1 p := funext fun a => Fin.ext (by
    match a with | ⟨0, _⟩ => rfl)
  have i2 : Cert.KernelIdeal.Value.ix6_2 (ix2 p e) = ix1 p := funext fun a => Fin.ext (by
    match a with | ⟨0, _⟩ => rfl)
  rw [E6_tree, i0, i1, i2, maxTile_at, sumTile_at, hrow, logit_at]
  rfl

end Cert.Router.Tile

end
-- ==== Proof.TokenBlocks.lean ====
/-
  Blocks of 512 tokens tile the arrays.

  The kernel runs over 32 grid points. At point t it is handed rows 512 t .. 512 t + 511 of the input, the whole of
  both weight matrices and both bias rows, and it writes back rows 512 t .. 512 t + 511 of the logits and of the gates.
  The weights it is handed were narrowed to bf16 before the launch and the biases reshaped from [H] to [1, H]: on the
  extended reals the first changes nothing and the second reads entry j at (0, j). Since every output row is a
  function of the same input row and of the weights (RouterSpec), block t of each output IS block t of the array of
  all tokens' logits, resp. gates; and since 32 blocks of 512 rows cover the 16384 rows, each output array ends as
  that whole array.
-/
import proofs.«160031_g12713103196696_cont_fleet_1060_40_alg».proof.Proof.Gen.KernelIdeal.Value
import proofs.«160031_g12713103196696_cont_fleet_1060_40_alg».proof.Proof.TileRows
import Idealize.ShloMosaic.Lib.StableHlo.Run
import Idealize.ShloMosaic.Lib.ValueLayout

noncomputable section

namespace Cert.Router.Blocks

open Cert.KernelIdeal Cert.KernelIdeal.Gen Idealize.ShloMosaic Idealize.ShloMosaic.TcCoe Idealize.SL.Sem
open Idealize.ShloMosaic.StableHlo Idealize.ShloMosaic.ValueIdx Cert.Router
open Idealize.ShloMosaic.Pipeline (Dat)

variable (m : (ℓ : Loc nD τ sig) → Buf (Elt Ideal) ℓ) (ρ : Dev nD → PrngReg)

/-! ## What the region finds in the buffers written before the launch -/

/-- The first weights narrowed to bf16: the same extended reals. -/
theorem found_w1 (c : Dev nD) :
    (V m c main_call0_v0 : S4096x4096.Idx → EReal) = (m ((c : Thread nD τ).loc main_arg1) : S4096x4096.Idx → EReal) := by
  dsimp only [Gen.V, Gen.hostOps0]; after_results; rfl

/-- The second weights narrowed to bf16: the same extended reals. -/
theorem found_w2 (c : Dev nD) :
    (V m c main_call0_v1 : S4096x64.Idx → EReal) = (m ((c : Thread nD τ).loc main_arg3) : S4096x64.Idx → EReal) := by
  dsimp only [Gen.V, Gen.hostOps0]; after_results; rfl

/-- The first bias as its one row. -/
theorem found_b1 (c : Dev nD) :
    (V m c main_call0_v2 : S1x4096.Idx → EReal)
      = shapeCast S1x4096 (m ((c : Thread nD τ).loc main_arg2) : S4096.Idx → EReal) shapeCasts_S4096_S1x4096 := by
  dsimp only [Gen.V, Gen.hostOps0]; after_results; rfl

/-- The second bias as its one row. -/
theorem found_b2 (c : Dev nD) :
    (V m c main_call0_v3 : S1x64.Idx → EReal)
      = shapeCast S1x64 (m ((c : Thread nD τ).loc main_arg4) : S64.Idx → EReal) shapeCasts_S64_S1x64 := by
  dsimp only [Gen.V, Gen.hostOps0]; after_results; rfl

/-! ## Where each window's block sits -/

/-- The block indices over the 32 grid points: the input rows and both outputs move with the point along axis 0,
    everything else stays at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem hz : (![0, 0] : Fin 2 → Nat) = fun _ => 0 := funext fun a => by fin_cases a <;> rfl

/-- The input block at point t holds rows 512 t .. of the input array. -/
theorem read_x (c : Dev nD) (t : Fin cfg0.N) (z : S512x4096.Idx) (i : S16384x4096.Idx)
    (h0 : (i 0).val = t.val * 512 + (z 0).val) (h1 : (i 1).val = (z 1).val) :
    iblk m c 0 t z = m ((c : Thread nD τ).loc main_arg0) i := by
  obtain ⟨e00, e01, e10, e11, e20, e21, e30, e31, e40, e41, e50, e51, e60, e61⟩ := idx_facts t
  show V m c main_arg0 (((cfg0.win 0).blk t).view.emb z) = _
  have e : ((cfg0.win 0).blk t).view.emb z = i := funext fun a => Fin.ext (by
    match a with
    | ⟨0, _⟩ => show win0_0.index t (0 : Fin 2) * 512 + 1 * (z 0).val = (i 0).val; omega
    | ⟨1, _⟩ => show win0_0.index t (1 : Fin 2) * 4096 + 1 * (z 1).val = (i 1).val; omega)
  rw [e, V_main_arg0]

/-- The first weights' block is the whole matrix, at every point. -/
theorem read_w1 (c : Dev nD) (t : Fin cfg0.N) (z : S4096x4096.Idx) :
    iblk m c 1 t z = m ((c : Thread nD τ).loc main_arg1) z := by
  obtain ⟨e00, e01, e10, e11, e20, e21, e30, e31, e40, e41, e50, e51, e60, e61⟩ := idx_facts t
  show V m c main_call0_v0 (((cfg0.win 1).blk t).view.emb z) = _
  have e : ((cfg0.win 1).blk t).view.emb z = z := funext fun a => Fin.ext (by
    match a with
    | ⟨0, _⟩ => show win0_1.index t (0 : Fin 2) * 4096 + 1 * (z 0).val = (z 0).val; omega
    | ⟨1, _⟩ => show win0_1.index t (1 : Fin 2) * 4096 + 1 * (z 1).val = (z 1).val; omega)
  rw [e]
  exact congrFun (found_w1 m c) z

/-- The second weights' block is the whole matrix, at every point. -/
theorem read_w2 (c : Dev nD) (t : Fin cfg0.N) (z : S4096x64.Idx) :
    iblk m c 3 t z = m ((c : Thread nD τ).loc main_arg3) z := by
  obtain ⟨e00, e01, e10, e11, e20, e21, e30, e31, e40, e41, e50, e51, e60, e61⟩ := idx_facts t
  show V m c main_call0_v1 (((cfg0.win 3).blk t).view.emb z) = _
  have e : ((cfg0.win 3).blk t).view.emb z = z := funext fun a => Fin.ext (by
    match a with
    | ⟨0, _⟩ => show win0_3.index t (0 : Fin 2) * 4096 + 1 * (z 0).val = (z 0).val; omega
    | ⟨1, _⟩ => show win0_3.index t (1 : Fin 2) * 64 + 1 * (z 1).val = (z 1).val; omega)
  rw [e]
  exact congrFun (found_w2 m c) z

/-- The first bias row's block reads, at (0, j), entry j of the bias. -/
theorem read_b1 (c : Dev nD) (t : Fin cfg0.N) (j : Fin 4096) :
    iblk m c 2 t (ix2 (0 : Fin 1) j) = m ((c : Thread nD τ).loc main_arg2) (ix1 j) := by
  obtain ⟨e00, e01, e10, e11, e20, e21, e30, e31, e40, e41, e50, e51, e60, e61⟩ := idx_facts t
  show V m c main_call0_v2 (((cfg0.win 2).blk t).view.emb (ix2 (0 : Fin 1) j)) = _
  have e : ((cfg0.win 2).blk t).view.emb (ix2 (0 : Fin 1) j) = ix2 (0 : Fin 1) j := funext fun a => Fin.ext (by
    match a with
    | ⟨0, _⟩ => show win0_2.index t (0 : Fin 2) * 1 + 1 * 0 = 0; omega
    | ⟨1, _⟩ => show win0_2.index t (1 : Fin 2) * 4096 + 1 * j.val = j.val; omega)
  rw [e]
  exact (congrFun (found_b1 m c) (ix2 (0 : Fin 1) j)).trans (shapeCast_a_1a_apply _ _ (0 : Fin 1) j)

/-- The second bias row's block reads, at (0, e), entry e of the bias. -/
theorem read_b2 (c : Dev nD) (t : Fin cfg0.N) (e : Fin 64) :
    iblk m c 4 t (ix2 (0 : Fin 1) e) = m ((c : Thread nD τ).loc main_arg4) (ix1 e) := by
  obtain ⟨e00, e01, e10, e11, e20, e21, e30, e31, e40, e41, e50, e51, e60, e61⟩ := idx_facts t
  show V m c main_call0_v3 (((cfg0.win 4).blk t).view.emb (ix2 (0 : Fin 1) e)) = _
  have e' : ((cfg0.win 4).blk t).view.emb (ix2 (0 : Fin 1) e) = ix2 (0 : Fin 1) e := funext fun a => Fin.ext (by
    match a with
    | ⟨0, _⟩ => show win0_4.index t (0 : Fin 2) * 1 + 1 * 0 = 0; omega
    | ⟨1, _⟩ => show win0_4.index t (1 : Fin 2) * 64 + 1 * e.val = e.val; omega)
  rw [e']
  exact (congrFun (found_b2 m c) (ix2 (0 : Fin 1) e)).trans (shapeCast_a_1a_apply _ _ (0 : Fin 1) e)

/-! ## A tile's entry is the arrays' entry on the same row -/

/-- Whatever the tile's operands, if row (y 0) of the input block is row (i 0) of the input array, the weight blocks are
    the weights and the bias rows the biases, then the logits tile at y is the logits array at i (same column). -/
theorem logits_point (P0 : FVec Ideal S512x4096 .f32) (P1 : FVec Ideal S4096x4096 .bf16) (P2 : FVec Ideal S1x4096 .f32) (P3 : FVec Ideal S4096x64 .bf16) (P4 : FVec Ideal S1x64 .f32)
    (X0 : FVec Ideal S16384x4096 .f32) (X1 : FVec Ideal S4096x4096 .f32) (X2 : FVec Ideal S4096 .f32) (X3 : FVec Ideal S4096x64 .f32) (X4 : FVec Ideal S64 .f32) (y : S512x64.Idx) (i : S16384x64.Idx)
    (hrow : ∀ k : Fin 4096, P0 (ix2 (y 0) k) = X0 (ix2 (i 0) k)) (hcol : (i 1).val = (y 1).val)
    (h1 : ∀ z, P1 z = X1 z) (h2 : ∀ j : Fin 4096, P2 (ix2 (0 : Fin 1) j) = X2 (ix1 j))
    (h3 : ∀ z, P3 z = X3 z) (h4 : ∀ e : Fin 64, P4 (ix2 (0 : Fin 1) e) = X4 (ix1 e)) :
    k0_pay1 (F := Ideal) P0 P1 P2 P3 P4 y = logitsArr (N := 16384) (D := 4096) (H := 4096) (E := 64) X0 X1 X2 X3 X4 i := by
  obtain ⟨p, e, rfl⟩ : ∃ (p : Fin 512) (e : Fin 64), y = ix2 p e := ⟨y 0, y 1, eq_ix2 y⟩
  obtain ⟨r, e', rfl⟩ : ∃ (r : Fin 16384) (e' : Fin 64), i = ix2 r e' := ⟨i 0, i 1, eq_ix2 i⟩
  have he : e' = e := Fin.ext hcol
  subst he
  have r0 : rowOf (N := 512) (D := 4096) P0 p = rowOf (N := 16384) (D := 4096) X0 r := funext hrow
  have r1 : mat (D := 4096) (H := 4096) P1 = mat (D := 4096) (H := 4096) X1 := funext fun k => funext fun j => h1 _
  have r2 : row0 (H := 4096) P2 = vec (H := 4096) X2 := funext h2
  have r3 : mat (D := 4096) (H := 64) P3 = mat (D := 4096) (H := 64) X3 := funext fun k => funext fun j => h3 _
  have r4 : row0 (H := 64) P4 = vec (H := 64) X4 := funext h4
  rw [Tile.logit_at, logitsArr_ix2, r0, r1, r2, r3, r4]

/-- The same for the gates tile's entry function. -/
theorem gates_point (P0 : FVec Ideal S512x4096 .f32) (P1 : FVec Ideal S4096x4096 .bf16) (P2 : FVec Ideal S1x4096 .f32) (P3 : FVec Ideal S4096x64 .bf16) (P4 : FVec Ideal S1x64 .f32)
    (X0 : FVec Ideal S16384x4096 .f32) (X1 : FVec Ideal S4096x4096 .f32) (X2 : FVec Ideal S4096 .f32) (X3 : FVec Ideal S4096x64 .f32) (X4 : FVec Ideal S64 .f32) (y : S512x64.Idx) (i : S16384x64.Idx)
    (hrow : ∀ k : Fin 4096, P0 (ix2 (y 0) k) = X0 (ix2 (i 0) k)) (hcol : (i 1).val = (y 1).val)
    (h1 : ∀ z, P1 z = X1 z) (h2 : ∀ j : Fin 4096, P2 (ix2 (0 : Fin 1) j) = X2 (ix1 j))
    (h3 : ∀ z, P3 z = X3 z) (h4 : ∀ e : Fin 64, P4 (ix2 (0 : Fin 1) e) = X4 (ix1 e)) :
    Cert.KernelIdeal.Value.E6 (F := Ideal) P0 P1 P2 P3 P4 y
      = gateArr (N := 16384) (D := 4096) (H := 4096) (E := 64) lo X0 X1 X2 X3 X4 i := by
  obtain ⟨p, e, rfl⟩ : ∃ (p : Fin 512) (e : Fin 64), y = ix2 p e := ⟨y 0, y 1, eq_ix2 y⟩
  obtain ⟨r, e', rfl⟩ : ∃ (r : Fin 16384) (e' : Fin 64), i = ix2 r e' := ⟨i 0, i 1, eq_ix2 i⟩
  have he : e' = e := Fin.ext hcol
  subst he
  have r0 : rowOf (N := 512) (D := 4096) P0 p = rowOf (N := 16384) (D := 4096) X0 r := funext hrow
  have r1 : mat (D := 4096) (H := 4096) P1 = mat (D := 4096) (H := 4096) X1 := funext fun k => funext fun j => h1 _
  have r2 : row0 (H := 4096) P2 = vec (H := 4096) X2 := funext h2
  have r3 : mat (D := 4096) (H := 64) P3 = mat (D := 4096) (H := 64) X3 := funext fun k => funext fun j => h3 _
  have r4 : row0 (H := 64) P4 = vec (H := 64) X4 := funext h4
  rw [Tile.gate_at, gateArr_ix2, r0, r1, r2, r3, r4]

/-- The body's second stored value, entry by entry, is that entry function (the generated reading of the body's one
    store through the whole block). -/
theorem pay2_apply (P0 : FVec Ideal S512x4096 .f32) (P1 : FVec Ideal S4096x4096 .bf16) (P2 : FVec Ideal S1x4096 .f32) (P3 : FVec Ideal S4096x64 .bf16) (P4 : FVec Ideal S1x64 .f32) (y : S512x64.Idx) :
    k0_pay2 (F := Ideal) P0 P1 P2 P3 P4 y = Cert.KernelIdeal.Value.E6 (F := Ideal) P0 P1 P2 P3 P4 y := by
  have h := Cert.KernelIdeal.Value.canon6_eq (F := Ideal) P0 P1 P2 P3 P4 y
  rw [View.canon_unit_zero hz] at h
  exact h

theorem gates_point' (P0 : FVec Ideal S512x4096 .f32) (P1 : FVec Ideal S4096x4096 .bf16) (P2 : FVec Ideal S1x4096 .f32) (P3 : FVec Ideal S4096x64 .bf16) (P4 : FVec Ideal S1x64 .f32)
    (X0 : FVec Ideal S16384x4096 .f32) (X1 : FVec Ideal S4096x4096 .f32) (X2 : FVec Ideal S4096 .f32) (X3 : FVec Ideal S4096x64 .f32) (X4 : FVec Ideal S64 .f32) (y : S512x64.Idx) (i : S16384x64.Idx)
    (hrow : ∀ k : Fin 4096, P0 (ix2 (y 0) k) = X0 (ix2 (i 0) k)) (hcol : (i 1).val = (y 1).val)
    (h1 : ∀ z, P1 z = X1 z) (h2 : ∀ j : Fin 4096, P2 (ix2 (0 : Fin 1) j) = X2 (ix1 j))
    (h3 : ∀ z, P3 z = X3 z) (h4 : ∀ e : Fin 64, P4 (ix2 (0 : Fin 1) e) = X4 (ix1 e)) :
    k0_pay2 (F := Ideal) P0 P1 P2 P3 P4 y
      = gateArr (N := 16384) (D := 4096) (H := 4096) (E := 64) lo X0 X1 X2 X3 X4 i :=
  (pay2_apply P0 P1 P2 P3 P4 y).trans (gates_point P0 P1 P2 P3 P4 X0 X1 X2 X3 X4 y i hrow hcol h1 h2 h3 h4)

/-! ## What each point writes back -/

/-- Point t writes back block t of the logits of all tokens. -/
theorem flushed5_eq (c : Dev nD) (t : Fin cfg0.N) :
    (dats m 0 c).flushed 5 t = ((cfg0.win 5).blk t).view.read (Elt Ideal) (logitsArr (N := 16384) (D := 4096) (H := 4096) (E := 64) (m ((c : Thread nD τ).loc main_arg0)) (m ((c : Thread nD τ).loc main_arg1)) (m ((c : Thread nD τ).loc main_arg2)) (m ((c : Thread nD τ).loc main_arg3)) (m ((c : Thread nD τ).loc main_arg4))) := by
  rw [Cert.KernelIdeal.Value.flushed5]
  unfold out0_5
  rw [View.canon_unit_zero hz]
  simp only [View.ld_unit_zero (S := S512x4096) hz, View.ld_unit_zero (S := S4096x4096) hz, View.ld_unit_zero (S := S1x4096) hz,
    View.ld_unit_zero (S := S4096x64) hz, View.ld_unit_zero (S := S1x64) hz]
  obtain ⟨e00, e01, e10, e11, e20, e21, e30, e31, e40, e41, e50, e51, e60, e61⟩ := idx_facts t
  funext y
  show k0_pay1 (F := Ideal) (iblk m c 0 t) (iblk m c 1 t) (iblk m c 2 t) (iblk m c 3 t) (iblk m c 4 t) y
    = logitsArr (N := 16384) (D := 4096) (H := 4096) (E := 64) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y)
  refine logits_point (iblk m c 0 t) (iblk m c 1 t) (iblk m c 2 t) (iblk m c 3 t) (iblk m c 4 t)
    (m ((c : Thread nD τ).loc main_arg0)) (m ((c : Thread nD τ).loc main_arg1)) (m ((c : Thread nD τ).loc main_arg2)) (m ((c : Thread nD τ).loc main_arg3)) (m ((c : Thread nD τ).loc main_arg4)) y (((cfg0.win 5).blk t).view.emb y)
    (fun k => read_x m c t _ _ ?_ rfl) ?_ (fun z => read_w1 m c t z) (fun j => read_b1 m c t j)
    (fun z => read_w2 m c t z) (fun e => read_b2 m c t e)
  · show win0_5.index t (0 : Fin 2) * 512 + 1 * (y 0).val = t.val * 512 + (y 0).val
    omega
  · show win0_5.index t (1 : Fin 2) * 64 + 1 * (y 1).val = (y 1).val
    omega

/-- Point t writes back block t of the gates of all tokens. -/
theorem flushed6_eq (c : Dev nD) (t : Fin cfg0.N) :
    (dats m 0 c).flushed 6 t = ((cfg0.win 6).blk t).view.read (Elt Ideal) (gateArr (N := 16384) (D := 4096) (H := 4096) (E := 64) lo (m ((c : Thread nD τ).loc main_arg0)) (m ((c : Thread nD τ).loc main_arg1)) (m ((c : Thread nD τ).loc main_arg2)) (m ((c : Thread nD τ).loc main_arg3)) (m ((c : Thread nD τ).loc main_arg4))) := by
  rw [Cert.KernelIdeal.Value.flushed6]
  unfold out0_6
  rw [View.canon_unit_zero hz]
  simp only [View.ld_unit_zero (S := S512x4096) hz, View.ld_unit_zero (S := S4096x4096) hz, View.ld_unit_zero (S := S1x4096) hz,
    View.ld_unit_zero (S := S4096x64) hz, View.ld_unit_zero (S := S1x64) hz]
  obtain ⟨e00, e01, e10, e11, e20, e21, e30, e31, e40, e41, e50, e51, e60, e61⟩ := idx_facts t
  funext y
  show k0_pay2 (F := Ideal) (iblk m c 0 t) (iblk m c 1 t) (iblk m c 2 t) (iblk m c 3 t) (iblk m c 4 t) y
    = gateArr (N := 16384) (D := 4096) (H := 4096) (E := 64) lo (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y)
  refine gates_point' (iblk m c 0 t) (iblk m c 1 t) (iblk m c 2 t) (iblk m c 3 t) (iblk m c 4 t)
    (m ((c : Thread nD τ).loc main_arg0)) (m ((c : Thread nD τ).loc main_arg1)) (m ((c : Thread nD τ).loc main_arg2)) (m ((c : Thread nD τ).loc main_arg3)) (m ((c : Thread nD τ).loc main_arg4)) y (((cfg0.win 6).blk t).view.emb y)
    (fun k => read_x m c t _ _ ?_ rfl) ?_ (fun z => read_w1 m c t z) (fun j => read_b1 m c t j)
    (fun z => read_w2 m c t z) (fun e => read_b2 m c t e)
  · show win0_6.index t (0 : Fin 2) * 512 + 1 * (y 0).val = t.val * 512 + (y 0).val
    omega
  · show win0_6.index t (1 : Fin 2) * 64 + 1 * (y 1).val = (y 1).val
    omega

/-! ## The 32 blocks cover the 16384 rows -/

theorem mem_blk5 (t : Fin cfg0.N) (i : S16384x64.Idx) :
    i ∈ ((cfg0.win 5).blk t).view.set ↔ ∀ a : Fin 2, win0_5.index t a * S512x64.size a ≤ (i a).val
      ∧ (i a).val < win0_5.index t a * S512x64.size a + S512x64.size a := by
  show i ∈ ((View.whole main_v0_0).slice (win0_5.rect t)).set ↔ _
  rw [View.set_slice_whole, Rect.mem_set_unit]
  exact Iff.rfl

theorem mem_blk6 (t : Fin cfg0.N) (i : S16384x64.Idx) :
    i ∈ ((cfg0.win 6).blk t).view.set ↔ ∀ a : Fin 2, win0_6.index t a * S512x64.size a ≤ (i a).val
      ∧ (i a).val < win0_6.index t a * S512x64.size a + S512x64.size a := by
  show i ∈ ((View.whole main_v0_1).slice (win0_6.rect t)).set ↔ _
  rw [View.set_slice_whole, Rect.mem_set_unit]
  exact Iff.rfl

/-- Row r of the logits lies in the block of point r / 512. -/
theorem cover5 (i : S16384x64.Idx) :
    ∃ t : Fin cfg0.N, (cfg0.win 5).flush t = true ∧ i ∈ ((cfg0.win 5).blk t).view.set := by
  have hi0 : (i 0).val < 16384 := (i 0).isLt
  have hi1 : (i 1).val < 64 := (i 1).isLt
  obtain ⟨t, ht⟩ : ∃ t : Fin cfg0.N, t.val = (i 0).val / 512 :=
    ⟨⟨(i 0).val / 512, by show (i 0).val / 512 < grid0.N; rw [N_0]; omega⟩, rfl⟩
  obtain ⟨e00, e01, e10, e11, e20, e21, e30, e31, e40, e41, e50, e51, e60, e61⟩ := idx_facts t
  refine ⟨t, flush0_5 t, ?_⟩
  rw [mem_blk5]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 64 ≤ (i 1).val ∧ (i 1).val < win0_5.index t (1 : Fin 2) * 64 + 64
    omega

/-- Row r of the gates lies in the block of point r / 512. -/
theorem cover6 (i : S16384x64.Idx) :
    ∃ t : Fin cfg0.N, (cfg0.win 6).flush t = true ∧ i ∈ ((cfg0.win 6).blk t).view.set := by
  have hi0 : (i 0).val < 16384 := (i 0).isLt
  have hi1 : (i 1).val < 64 := (i 1).isLt
  obtain ⟨t, ht⟩ : ∃ t : Fin cfg0.N, t.val = (i 0).val / 512 :=
    ⟨⟨(i 0).val / 512, by show (i 0).val / 512 < grid0.N; rw [N_0]; omega⟩, rfl⟩
  obtain ⟨e00, e01, e10, e11, e20, e21, e30, e31, e40, e41, e50, e51, e60, e61⟩ := idx_facts t
  refine ⟨t, flush0_6 t, ?_⟩
  rw [mem_blk6]
  intro a
  match a with
  | ⟨0, _⟩ =>
    show win0_6.index t (0 : Fin 2) * 512 ≤ (i 0).val ∧ (i 0).val < win0_6.index t (0 : Fin 2) * 512 + 512
    omega
  | ⟨1, _⟩ =>
    show win0_6.index t (1 : Fin 2) * 64 ≤ (i 1).val ∧ (i 1).val < win0_6.index t (1 : Fin 2) * 64 + 64
    omega

/-! ## The arrays after the run -/

theorem final5 (c : Dev nD) : (dats m 0 c).arrAt 5 cfg0.N = logitsArr (N := 16384) (D := 4096) (H := 4096) (E := 64) (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 _ (fun t _ => flushed5_eq m c t) cover5

theorem final6 (c : Dev nD) : (dats m 0 c).arrAt 6 cfg0.N = gateArr (N := 16384) (D := 4096) (H := 4096) (E := 64) lo (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 6 _ (fun t _ => flushed6_eq m c t) cover6

/-- The kernel's run: every weakly fair execution ends with the first result at the logits of all tokens, the second at
    their gates, and the arguments as they were. -/
theorem run : θ_run defs (onTc (τ := τ) (main (F := Ideal))) ⟨m, fun _ => 0, ρ⟩ fun r => ∀ c : Dev nD,
      r.2.mem ((c : Thread nD τ).loc main_v0_0) = logitsArr (N := 16384) (D := 4096) (H := 4096) (E := 64) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) = gateArr (N := 16384) (D := 4096) (H := 4096) (E := 64) lo (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2⟩)
    (Cert.KernelIdeal.Value.run_blocks m ρ)

end Cert.Router.Blocks

end
-- ==== Proof.lean ====
/-
  A token router kernel against its reference: the five claims.

  The kernel computes, for 16384 tokens of 4096 features, the logits  silu (x w1 + b1) w2 + b2  over 64 experts and
  their softmax, 512 tokens per grid point, with the operands of both products narrowed to bf16; the reference computes
  the same from the whole arrays. On the extended reals narrowing is the identity, a product into a zero accumulator and
  the host's product are the same sum over the contracted coordinate, the kernel's logistic is by definition the
  reference's 1 / (1 + exp (-a)), and both softmaxes are the stable one folded from minus infinity. So both programs
  end with each result array equal to ONE function of the argument arrays, row by row (RouterSpec): the kernel's because
  block t of each output is block t of that function and the 32 blocks cover the rows (TokenBlocks, over TileRows), the
  reference's stage by stage (RefRows). No sum is re-ordered, so nothing here needs the inputs to be finite.

  The three frame claims are the generated frame runs (the reference's is its run with the results dropped); the
  idealization rewrote no operation, so its claim is trivial.
-/
import proofs.«160031_g12713103196696_cont_fleet_1060_40_alg».proof.Defs
import proofs.«160031_g12713103196696_cont_fleet_1060_40_alg».proof.Proof.Gen.Kernel
import proofs.«160031_g12713103196696_cont_fleet_1060_40_alg».proof.Proof.Gen.Kernel.Skeleton
import proofs.«160031_g12713103196696_cont_fleet_1060_40_alg».proof.Proof.Gen.Kernel.Launch
import proofs.«160031_g12713103196696_cont_fleet_1060_40_alg».proof.Proof.Gen.Kernel.Points
import proofs.«160031_g12713103196696_cont_fleet_1060_40_alg».proof.Proof.Gen.Kernel.Frame
import proofs.«160031_g12713103196696_cont_fleet_1060_40_alg».proof.Proof.Gen.KernelIdeal
import proofs.«160031_g12713103196696_cont_fleet_1060_40_alg».proof.Proof.Gen.KernelIdeal.Skeleton
import proofs.«160031_g12713103196696_cont_fleet_1060_40_alg».proof.Proof.Gen.KernelIdeal.Launch
import proofs.«160031_g12713103196696_cont_fleet_1060_40_alg».proof.Proof.Gen.KernelIdeal.Points
import proofs.«160031_g12713103196696_cont_fleet_1060_40_alg».proof.Proof.Gen.KernelIdeal.Frame
import proofs.«160031_g12713103196696_cont_fleet_1060_40_alg».proof.Proof.Gen.ReferenceIdeal
import proofs.«160031_g12713103196696_cont_fleet_1060_40_alg».proof.Proof.Gen.Pre_finite_inputs
import proofs.«160031_g12713103196696_cont_fleet_1060_40_alg».proof.Proof.Gen.KernelIdeal.Value
import proofs.«160031_g12713103196696_cont_fleet_1060_40_alg».proof.Proof.Gen.ReferenceIdeal.Run
import proofs.«160031_g12713103196696_cont_fleet_1060_40_alg».proof.Proof.Gen.ReferenceIdeal.Read
import proofs.«160031_g12713103196696_cont_fleet_1060_40_alg».proof.Proof.RefRows
import proofs.«160031_g12713103196696_cont_fleet_1060_40_alg».proof.Proof.TokenBlocks
import Idealize.ShloMosaic.Adequacy
import Idealize.ShloMosaic.Init

noncomputable section

namespace Cert.Proof

open Idealize.ShloMosaic Idealize.SL.Sem Cert.Kernel

/-- The kernel as printed runs, nothing faults, and its arguments end unchanged. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The idealized reference likewise: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on the five arguments both programs end with the logits and the gates of all tokens. -/
theorem algebraic : Cert.algebraic_KernelIdeal_ReferenceIdeal := by
  intro m ρ m' ρ' _ hagree
  refine ⟨_, _, Cert.Router.Blocks.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v14_eq, Cert.Router.Ref.logits_eq,
      (hagree c).1, (hagree c).2.1, (hagree c).2.2.1, (hagree c).2.2.2.1, (hagree c).2.2.2.2]
  · rw [(h c).2.1, Cert.ReferenceIdeal.Read.val_main_v25_eq, Cert.Router.Ref.gate_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
